-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x768 : Shape := ⟨3, ![2, 512, 768]⟩
abbrev S2x196x768 : Shape := ⟨3, ![2, 196, 768]⟩
abbrev S768x1536 : Shape := ⟨2, ![768, 1536]⟩
abbrev S768 : Shape := ⟨1, ![768]⟩
abbrev S1x768 : Shape := ⟨2, ![1, 768]⟩
abbrev S1 : Shape := ⟨1, ![1]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S2x196x768 : S_.BroadcastsInDim S2x196x768 (![] : Fin 0 → Fin S2x196x768.rank)
  reducesTo_S2x196x768_S_d0_1_2 : S2x196x768.ReducesTo [0, 1, 2] S_
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_
  bcast_S_S1x768 : S_.BroadcastsInDim S1x768 (![] : Fin 0 → Fin S1x768.rank)
  reducesTo_S1x768_S_d0_1 : S1x768.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x768 .f32) (main_arg5 : FVec F S1 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S1x768 .f32 := Host.absf main_arg4
  let main_cst_6 : FVec F S_ .f32 := constant S_ .f32 0x7F800000#32
  let main_v20 : FVec F S1x768 .f32 := broadcastInDim S1x768 ![] bcast_S_S1x768 main_cst_6
  let main_v21 : IVec S1x768 1 := cmpf .olt main_v19 main_v20
  let main_c_7 : IVec S_ 1 := constantI S_ 1 1#1
  let main_v22 : IVec S_ 1 := (fun x v => Host.reduce IntOp.andi x v reducesTo_S1x768_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S2x512x768 .f32) (main_arg1 : FVec F S2x196x768 .f32) (main_arg2 : FVec F S768x1536 .f32) (main_arg3 : FVec F S768 .f32) (main_arg4 : FVec F S1x768 .f32) (main_arg5 : FVec F S1 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S2x196x768 .f32 := Host.absf main_arg1
  let main_cst_0 : FVec F S_ .f32 := constant S_ .f32 0x7F800000#32
  let main_v5 : FVec F S2x196x768 .f32 := broadcastInDim S2x196x768 ![] bcast_S_S2x196x768 main_cst_0
  let main_v6 : IVec S2x196x768 1 := cmpf .olt main_v4 main_v5
  let main_c_1 : IVec S_ 1 := constantI S_ 1 1#1
  let main_v7 : IVec S_ 1 := (fun x v => Host.reduce IntOp.andi x v reducesTo_S2x196x768_S_d0_1_2 h_S_) main_v6 main_c_1
  let main_v8 : IVec S_ 1 := andi main_v3 main_v7
  let main_v9 : FVec F S768x1536 .f32 := Host.absf main_arg2
  let main_cst_2 : FVec F S_ .f32 := constant S_ .f32 0x7F800000#32
  let main_v10 : FVec F S768x1536 .f32 := broadcastInDim S768x1536 ![] bcast_S_S768x1536 main_cst_2
  let main_v11 : IVec S768x1536 1 := cmpf .olt main_v9 main_v10
  let main_c_3 : IVec S_ 1 := constantI S_ 1 1#1
  let main_v12 : IVec S_ 1 := (fun x v => Host.reduce IntOp.andi x v reducesTo_S768x1536_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_v13 main_v16
-- ==== Kernel.lean ====
abbrev S2x512x768 : Shape := ⟨3, ![2, 512, 768]⟩
abbrev S2x196x768 : Shape := ⟨3, ![2, 196, 768]⟩
abbrev S768x1536 : Shape := ⟨2, ![768, 1536]⟩
abbrev S768 : Shape := ⟨1, ![768]⟩
abbrev S1x768 : Shape := ⟨2, ![1, 768]⟩
abbrev S1 : Shape := ⟨1, ![1]⟩
abbrev S768x768 : Shape := ⟨2, ![768, 768]⟩
abbrev S1024x768 : Shape := ⟨2, ![1024, 768]⟩
abbrev S392x768 : Shape := ⟨2, ![392, 768]⟩
abbrev S128x768 : Shape := ⟨2, ![128, 768]⟩
abbrev S2x512x196 : Shape := ⟨3, ![2, 512, 196]⟩
abbrev S1x16x768 : Shape := ⟨3, ![1, 16, 768]⟩
abbrev S1x196x768 : Shape := ⟨3, ![1, 196, 768]⟩
abbrev S1x16x196 : Shape := ⟨3, ![1, 16, 196]⟩
abbrev S16x768 : Shape := ⟨2, ![16, 768]⟩
abbrev S196x768 : Shape := ⟨2, ![196, 768]⟩
abbrev S16x1x768 : Shape := ⟨3, ![16, 1, 768]⟩
abbrev S16x196x768 : Shape := ⟨3, ![16, 196, 768]⟩
abbrev S1x1x768 : Shape := ⟨3, ![1, 1, 768]⟩
abbrev S16x196 : Shape := ⟨2, ![16, 196]⟩

abbrev nBuf : Space → Nat
  | .hbm => 16
  | .vmem => 17
  | .smem => 0
  | _ => 0

abbrev bufTy : (tb : Table) → Fin (tcTables nBuf tb) → BufTy
  | .hbm, ⟨0, _⟩ => ⟨S2x512x768, .f32⟩
  | .hbm, ⟨1, _⟩ => ⟨S2x196x768, .f32⟩
  | .hbm, ⟨2, _⟩ => ⟨S768x1536, .f32⟩
  | .hbm, ⟨3, _⟩ => ⟨S768, .f32⟩
  | .hbm, ⟨4, _⟩ => ⟨S1x768, .f32⟩
  | .hbm, ⟨5, _⟩ => ⟨S1, .f32⟩
  | .hbm, ⟨6, _⟩ => ⟨S768x768, .f32⟩
  | .hbm, ⟨7, _⟩ => ⟨S768x768, .f32⟩
  | .hbm, ⟨8, _⟩ => ⟨S1024x768, .f32⟩
  | .hbm, ⟨9, _⟩ => ⟨S392x768, .f32⟩
  | .hbm, ⟨10, _⟩ => ⟨S1024x768, .f32⟩
  | .hbm, ⟨11, _⟩ => ⟨S392x768, .f32⟩
  | .hbm, ⟨12, _⟩ => ⟨S2x512x768, .f32⟩
  | .hbm, ⟨13, _⟩ => ⟨S2x196x768, .f32⟩
  | .hbm, ⟨14, _⟩ => ⟨S768, .f32⟩
  | .hbm, ⟨15, _⟩ => ⟨S2x512x196, .f32⟩
  | .local _ .vmem, ⟨0, _⟩ => ⟨S128x768, .f32⟩
  | .local _ .vmem, ⟨1, _⟩ => ⟨S128x768, .f32⟩
  | .local _ .vmem, ⟨2, _⟩ => ⟨S768x768, .f32⟩
  | .local _ .vmem, ⟨3, _⟩ => ⟨S128x768, .f32⟩
  | .local _ .vmem, ⟨4, _⟩ => ⟨S128x768, .f32⟩
  | .local _ .vmem, ⟨5, _⟩ => ⟨S392x768, .f32⟩
  | .local _ .vmem, ⟨6, _⟩ => ⟨S768x768, .f32⟩
  | .local _ .vmem, ⟨7, _⟩ => ⟨S392x768, .f32⟩
  | .local _ .vmem, ⟨8, _⟩ => ⟨S1x16x768, .f32⟩
  | .local _ .vmem, ⟨9, _⟩ => ⟨S1x16x768, .f32⟩
  | .local _ .vmem, ⟨10, _⟩ => ⟨S1x196x768, .f32⟩
  | .local _ .vmem, ⟨11, _⟩ => ⟨S1x196x768, .f32⟩
  | .local _ .vmem, ⟨12, _⟩ => ⟨S768, .f32⟩
  | .local _ .vmem, ⟨13, _⟩ => ⟨S768, .f32⟩
  | .local _ .vmem, ⟨14, _⟩ => ⟨S1, .f32⟩
  | .local _ .vmem, ⟨15, _⟩ => ⟨S1x16x196, .f32⟩
  | .local _ .vmem, ⟨16, _⟩ => ⟨S1x16x196, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S392x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S768x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S392x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![2, 32], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x196x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x16x196 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  slices_S768x1536_S768x768_0_0 : S768x1536.Slices ![0, 0] S768x768
  slices_S768x1536_S768x768_0_768 : S768x1536.Slices ![0, 768] S768x768
  shapeCasts_S2x512x768_S1024x768 : S2x512x768.ShapeCasts S1024x768
  shapeCasts_S2x196x768_S392x768 : S2x196x768.ShapeCasts S392x768
  inb_S128x768_S128x768_0_0 : ∀ a, (![0, 0] : Fin 2 → Nat) a + S128x768.size a ≤ S128x768.size a
  h_S128x768 : 0 < S128x768.numel
  shapeCasts_S128x768_S128x768 : S128x768.ShapeCasts S128x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S392x768_S392x768_0_0 : ∀ a, (![0, 0] : Fin 2 → Nat) a + S392x768.size a ≤ S392x768.size a
  h_S392x768 : 0 < S392x768.numel
  shapeCasts_S392x768_S392x768 : S392x768.ShapeCasts S392x768
  shapeCasts_S1024x768_S2x512x768 : S1024x768.ShapeCasts S2x512x768
  shapeCasts_S392x768_S2x196x768 : S392x768.ShapeCasts S2x196x768
  shapeCasts_S1x768_S768 : S1x768.ShapeCasts S768
  inb_S1x16x768_S1x16x768_0_0_0 : ∀ a, (![0, 0, 0] : Fin 3 → Nat) a + S1x16x768.size a ≤ S1x16x768.size a
  h_S1x16x768 : 0 < S1x16x768.numel
  shapeCasts_S1x16x768_S16x768 : S1x16x768.ShapeCasts S16x768
  inb_S1x196x768_S1x196x768_0_0_0 : ∀ a, (![0, 0, 0] : Fin 3 → Nat) a + S1x196x768.size a ≤ S1x196x768.size a
  h_S1x196x768 : 0 < S1x196x768.numel
  shapeCasts_S1x196x768_S196x768 : S1x196x768.ShapeCasts S196x768
  inb_S768_S768_0 : ∀ a, (![0] : Fin 1 → Nat) a + S768.size a ≤ S768.size a
  h_S768 : 0 < S768.numel
  shapeCasts_S768_S768 : S768.ShapeCasts S768
  inb_S1_S1_0 : ∀ a, (![0] : Fin 1 → Nat) a + S1.size a ≤ S1.size a
  h_S1 : 0 < S1.numel
  inpos_S1_p0 : ∀ a, (![0] : Fin 1 → Nat) a < S1.size a
  shapeCasts_S16x768_S16x1x768 : S16x768.ShapeCasts S16x1x768
  shapeCasts_S196x768_S1x196x768 : S196x768.ShapeCasts S1x196x768
  broadcasts_S16x1x768_S16x196x768 : S16x1x768.Broadcasts S16x196x768
  broadcasts_S1x196x768_S16x196x768 : S1x196x768.Broadcasts S16x196x768
  shapeCasts_S768_S1x1x768 : S768.ShapeCasts S1x1x768
  broadcasts_S1x1x768_S16x196x768 : S1x1x768.Broadcasts S16x196x768
  reduces_S16x196x768_S16x196 : S16x196x768.Reduces [2] S16x196
  inb_S1x16x196_S1x16x196_0_0_0 : ∀ a, (![0, 0, 0] : Fin 3 → Nat) a + S1x16x196.size a ≤ S1x16x196.size a
  h_S1x16x196 : 0 < S1x16x196.numel
  shapeCasts_S1x16x196_S16x196 : S1x16x196.ShapeCasts S16x196
  shapeCasts_S16x196_S1x16x196 : S16x196.ShapeCasts S1x16x196
  dot_S128x768_S768x768_S128x768_1_1_0_0_n_n_wf : DotDims.WF S128x768 S768x768 S128x768 [1] [1] [0] [0] [] []
  dot_S392x768_S768x768_S392x768_1_1_0_0_n_n_wf : DotDims.WF S392x768 S768x768 S392x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S1024x768.size a
  hwx0_0 : ∀ i : grid0.Coords, EltTy.bits .f32 = 32 ∨ (Rect.block (s := S1024x768) S128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S1024x768.size a
  hwx0_2 : ∀ i : grid0.Coords, EltTy.bits .f32 = 32 ∨ (Rect.block (s := S1024x768) S128x768.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S392x768.size a ≤ S392x768.size a
  hwx1_0 : ∀ i : grid1.Coords, EltTy.bits .f32 = 32 ∨ (Rect.block (s := S392x768) S392x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .f32 = 32 ∨ (Rect.block (s := S768x768) S768x768.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S392x768.size a ≤ S392x768.size a
  hwx1_2 : ∀ i : grid1.Coords, EltTy.bits .f32 = 32 ∨ (Rect.block (s := S392x768) S392x768.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x768.size a ≤ S2x512x768.size a
  hwx2_0 : ∀ i : grid2.Coords, EltTy.bits .f32 = 32 ∨ (Rect.block (s := S2x512x768) S1x16x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x196x768.size a ≤ S2x196x768.size a
  hwx2_1 : ∀ i : grid2.Coords, EltTy.bits .f32 = 32 ∨ (Rect.block (s := S2x196x768) S1x196x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768.size a ≤ S768.size a
  hwx2_2 : ∀ i : grid2.Coords, EltTy.bits .f32 = 32 ∨ (Rect.block (s := S768) S768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S768.size a ≤ S768.size a
  hwx2_3 : ∀ i : grid2.Coords, EltTy.bits .f32 = 32 ∨ (Rect.block (s := S768) S768.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x16x196.size a ≤ S2x512x196.size a
  hwx2_5 : ∀ i : grid2.Coords, EltTy.bits .f32 = 32 ∨ (Rect.block (s := S2x512x196) S1x16x196.size (cc2_transform_5 i) (hinb2_5 i)).WholeWords (EltTy.packing .f32)

variable [Facts₀]

def dot_S128x768_S768x768_S128x768_1_1_0_0_n_n : DotDims S128x768 S768x768 S128x768 where
  lhsContracting := [1]
  rhsContracting := [1]
  lhsNonContracting := [0]
  rhsNonContracting := [0]
  lhsBatch := []
  rhsBatch := []
  wf := dot_S128x768_S768x768_S128x768_1_1_0_0_n_n_wf
def dot_S392x768_S768x768_S392x768_1_1_0_0_n_n : DotDims S392x768 S768x768 S392x768 where
  lhsContracting := [1]
  rhsContracting := [1]
  lhsNonContracting := [0]
  rhsNonContracting := [0]
  lhsBatch := []
  rhsBatch := []
  wf := dot_S392x768_S768x768_S392x768_1_1_0_0_n_n_wf

abbrev win0_0 : Pipeline.Window sig grid0 :=
  Pipeline.Window.ofSpec (Memref.whole main_v2) S128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S392x768.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S392x768.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S1x16x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x196x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S1x16x196.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S2x512x768 : Shape := ⟨3, ![2, 512, 768]⟩
abbrev S2x196x768 : Shape := ⟨3, ![2, 196, 768]⟩
abbrev S768x1536 : Shape := ⟨2, ![768, 1536]⟩
abbrev S768 : Shape := ⟨1, ![768]⟩
abbrev S1x768 : Shape := ⟨2, ![1, 768]⟩
abbrev S1 : Shape := ⟨1, ![1]⟩
abbrev S768x768 : Shape := ⟨2, ![768, 768]⟩
abbrev S2x512x1x768 : Shape := ⟨4, ![2, 512, 1, 768]⟩
abbrev S2x1x196x768 : Shape := ⟨4, ![2, 1, 196, 768]⟩
abbrev S2x512x196x768 : Shape := ⟨4, ![2, 512, 196, 768]⟩
abbrev S1x1x1x768 : Shape := ⟨4, ![1, 1, 1, 768]⟩
abbrev S_ : Shape := ⟨0, ![]⟩
abbrev S2x512x196x1 : Shape := ⟨4, ![2, 512, 196, 1]⟩
abbrev S2x512x196 : Shape := ⟨3, ![2, 512, 196]⟩

abbrev nBuf : Space → Nat
  | .hbm => 34
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S2x196x768, .f32⟩
  | .hbm, ⟨2, _⟩ => ⟨S768x1536, .f32⟩
  | .hbm, ⟨3, _⟩ => ⟨S768, .f32⟩
  | .hbm, ⟨4, _⟩ => ⟨S1x768, .f32⟩
  | .hbm, ⟨5, _⟩ => ⟨S1, .f32⟩
  | .hbm, ⟨6, _⟩ => ⟨S768x768, .f32⟩
  | .hbm, ⟨7, _⟩ => ⟨S768x768, .f32⟩
  | .hbm, ⟨8, _⟩ => ⟨S2x512x768, .f32⟩
  | .hbm, ⟨9, _⟩ => ⟨S2x196x768, .f32⟩
  | .hbm, ⟨10, _⟩ => ⟨S2x512x1x768, .f32⟩
  | .hbm, ⟨11, _⟩ => ⟨S2x1x196x768, .f32⟩
  | .hbm, ⟨12, _⟩ => ⟨S2x512x196x768, .f32⟩
  | .hbm, ⟨13, _⟩ => ⟨S2x512x196x768, .f32⟩
  | .hbm, ⟨14, _⟩ => ⟨S2x512x196x768, .f32⟩
  | .hbm, ⟨15, _⟩ => ⟨S1x1x1x768, .f32⟩
  | .hbm, ⟨16, _⟩ => ⟨S2x512x196x768, .f32⟩
  | .hbm, ⟨17, _⟩ => ⟨S2x512x196x768, .f32⟩
  | .hbm, ⟨18, _⟩ => ⟨S_, .f32⟩
  | .hbm, ⟨19, _⟩ => ⟨S2x512x196x768, .f32⟩
  | .hbm, ⟨20, _⟩ => ⟨S2x512x196x768, .f32⟩
  | .hbm, ⟨21, _⟩ => ⟨S2x512x196x1, .f32⟩
  | .hbm, ⟨22, _⟩ => ⟨S2x512x196, .f32⟩
  | .hbm, ⟨23, _⟩ => ⟨S_, .f32⟩
  | .hbm, ⟨24, _⟩ => ⟨S2x512x196, .f32⟩
  | .hbm, ⟨25, _⟩ => ⟨S2x512x196, .f32⟩
  | .hbm, ⟨26, _⟩ => ⟨S2x512x196, .f32⟩
  | .hbm, ⟨27, _⟩ => ⟨S2x512x196, .f32⟩
  | .hbm, ⟨28, _⟩ => ⟨S_, .f32⟩
  | .hbm, ⟨29, _⟩ => ⟨S2x512x196, .f32⟩
  | .hbm, ⟨30, _⟩ => ⟨S2x512x196, .f32⟩
  | .hbm, ⟨31, _⟩ => ⟨S_, .f32⟩
  | .hbm, ⟨32, _⟩ => ⟨S2x512x196, .f32⟩
  | .hbm, ⟨33, _⟩ => ⟨S2x512x196, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  slices_S768x1536_S768x768_0_0 : S768x1536.Slices ![0, 0] S768x768
  slices_S768x1536_S768x768_0_768 : S768x1536.Slices ![0, 768] S768x768
  bcast_S2x512x768_S2x512x1x768_0_1_3 : S2x512x768.BroadcastsInDim S2x512x1x768 (![0, 1, 3] : Fin 3 → Fin S2x512x1x768.rank)
  bcast_S2x196x768_S2x1x196x768_0_2_3 : S2x196x768.BroadcastsInDim S2x1x196x768 (![0, 2, 3] : Fin 3 → Fin S2x1x196x768.rank)
  bcast_S2x512x1x768_S2x512x196x768_0_1_2_3 : S2x512x1x768.BroadcastsInDim S2x512x196x768 (![0, 1, 2, 3] : Fin 4 → Fin S2x512x196x768.rank)
  bcast_S2x1x196x768_S2x512x196x768_0_1_2_3 : S2x1x196x768.BroadcastsInDim S2x512x196x768 (![0, 1, 2, 3] : Fin 4 → Fin S2x512x196x768.rank)
  bcast_S768_S1x1x1x768_3 : S768.BroadcastsInDim S1x1x1x768 (![3] : Fin 1 → Fin S1x1x1x768.rank)
  bcast_S1x1x1x768_S2x512x196x768_0_1_2_3 : S1x1x1x768.BroadcastsInDim S2x512x196x768 (![0, 1, 2, 3] : Fin 4 → Fin S2x512x196x768.rank)
  bcast_S_S2x512x196x768 : S_.BroadcastsInDim S2x512x196x768 (![] : Fin 0 → Fin S2x512x196x768.rank)
  shapeCasts_S2x512x196x1_S2x512x196 : S2x512x196x1.ShapeCasts S2x512x196
  shapeCasts_S1_S_ : S1.ShapeCasts S_
  bcast_S_S2x512x196 : S_.BroadcastsInDim S2x512x196 (![] : Fin 0 → Fin S2x512x196.rank)
  dot_S2x512x768_S768x768_S2x512x768_2_1_01_0_n_n_wf : DotDims.WF S2x512x768 S768x768 S2x512x768 [2] [1] [0, 1] [0] [] []
  dot_S2x196x768_S768x768_S2x196x768_2_1_01_0_n_n_wf : DotDims.WF S2x196x768 S768x768 S2x196x768 [2] [1] [0, 1] [0] [] []
  dot_S2x512x196x768_S1x768_S2x512x196x1_3_1_012_0_n_n_wf : DotDims.WF S2x512x196x768 S1x768 S2x512x196x1 [3] [1] [0, 1, 2] [0] [] []

variable [Facts₀]

def dot_S2x512x768_S768x768_S2x512x768_2_1_01_0_n_n : DotDims S2x512x768 S768x768 S2x512x768 where
  lhsContracting := [2]
  rhsContracting := [1]
  lhsNonContracting := [0, 1]
  rhsNonContracting := [0]
  lhsBatch := []
  rhsBatch := []
  wf := dot_S2x512x768_S768x768_S2x512x768_2_1_01_0_n_n_wf
def dot_S2x196x768_S768x768_S2x196x768_2_1_01_0_n_n : DotDims S2x196x768 S768x768 S2x196x768 where
  lhsContracting := [2]
  rhsContracting := [1]
  lhsNonContracting := [0, 1]
  rhsNonContracting := [0]
  lhsBatch := []
  rhsBatch := []
  wf := dot_S2x196x768_S768x768_S2x196x768_2_1_01_0_n_n_wf
def dot_S2x512x196x768_S1x768_S2x512x196x1_3_1_012_0_n_n : DotDims S2x512x196x768 S1x768 S2x512x196x1 where
  lhsContracting := [3]
  rhsContracting := [1]
  lhsNonContracting := [0, 1, 2]
  rhsNonContracting := [0]
  lhsBatch := []
  rhsBatch := []
  wf := dot_S2x512x196x768_S1x768_S2x512x196x1_3_1_012_0_n_n_wf

class Facts : Prop extends Facts₀ where

variable [Facts]
-- ==== Proof.KernelRun.lean ====
/-
  The idealized kernel's run with its result array NAMED.  @main is three kernel regions among stretches of host
  operations; the buffer contents at each boundary are a fold from the launch memory, and the last boundary's
  contents are what every fair execution ends at.  Here that is said of the result array as well as of the
  arguments: the result ends holding the last boundary's contents at its buffer.
-/
import proofs.«177685_j24704651886645_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents of the
    last segment boundary and every argument array as launched. -/
theorem run : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Named

end
-- ==== Proof.ProjBody.lean ====
/-
  What the projection kernels' bodies compute from their two loaded blocks, read at an entry: a block of rows against
  the whole weight matrix, contracted over the shared axis into a zero accumulator, is at `(r, h)` the plain sum
  `Σ_k x[r, k] · w[h, k]` (a change of float format is the identity over the extended reals).
-/
import proofs.«177685_j24704651886645_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.ProjBody

open Cert.KernelIdeal Cert.KernelIdeal.Gen Idealize.ShloMosaic Idealize.ShloMosaic.ValueIdx

/-! ### Which entries of the two operands meet at contraction position `q` of output entry `i` (128 rows) -/

theorem rows128_lhs0 (i : S128x768.Idx) (q : dot_S128x768_S768x768_S128x768_1_1_0_0_n_n.contr.Idx) : (dot_S128x768_S768x768_S128x768_1_1_0_0_n_n.lhsIdx i q 0).val = (i 0).val := by
  unfold DotDims.lhsIdx
  rw [dif_neg (show ¬(0 : Fin S128x768.rank) ∈ dot_S128x768_S768x768_S128x768_1_1_0_0_n_n.lhsBatch by decide), dif_pos (show (0 : Fin S128x768.rank) ∈ dot_S128x768_S768x768_S128x768_1_1_0_0_n_n.lhsNonContracting by decide)]
  rfl
theorem rows128_lhs1 (i : S128x768.Idx) (q : dot_S128x768_S768x768_S128x768_1_1_0_0_n_n.contr.Idx) : (dot_S128x768_S768x768_S128x768_1_1_0_0_n_n.lhsIdx i q 1).val = (q ⟨0, by decide⟩).val :=
  dot_S128x768_S768x768_S128x768_1_1_0_0_n_n.lhsIdx_val_of_single rfl i q
theorem rows128_rhs0 (i : S128x768.Idx) (q : dot_S128x768_S768x768_S128x768_1_1_0_0_n_n.contr.Idx) : (dot_S128x768_S768x768_S128x768_1_1_0_0_n_n.rhsIdx i q 0).val = (i 1).val := by
  unfold DotDims.rhsIdx
  rw [dif_neg (show ¬(0 : Fin S768x768.rank) ∈ dot_S128x768_S768x768_S128x768_1_1_0_0_n_n.rhsBatch by decide), dif_pos (show (0 : Fin S768x768.rank) ∈ dot_S128x768_S768x768_S128x768_1_1_0_0_n_n.rhsNonContracting by decide)]
  rfl
theorem rows128_rhs1 (i : S128x768.Idx) (q : dot_S128x768_S768x768_S128x768_1_1_0_0_n_n.contr.Idx) : (dot_S128x768_S768x768_S128x768_1_1_0_0_n_n.rhsIdx i q 1).val = (q ⟨0, by decide⟩).val :=
  dot_S128x768_S768x768_S128x768_1_1_0_0_n_n.rhsIdx_val_of_single rfl i q

/-- The first projection's body (a block of 128 token rows) at an entry. -/
theorem rows128_apply (x0 : Vec Ideal S128x768 .f32) (x1 : Vec Ideal S768x768 .f32) (r : Fin 128) (h : Fin 768) :
    k0_pay1 (F := Ideal) x0 x1 (ix2 r h) = ∑ k : Fin 768, x0 (ix2 r k) * x1 (ix2 h k) := by
  unfold k0_pay1
  rw [shapeCast_self, shapeCast_self]
  refine (Ideal.matmul_constant_zero_apply (φ₁ := .bf16) (φ₂ := .bf16) dot_S128x768_S768x768_S128x768_1_1_0_0_n_n none _ _ (ix2 r h)).trans ?_
  rw [← Equiv.sum_comp (contrEquiv1 dot_S128x768_S768x768_S128x768_1_1_0_0_n_n 768 rfl rfl).symm]
  refine Finset.sum_congr rfl fun k _ => ?_
  have hk := contrEquiv1_symm_val dot_S128x768_S768x768_S128x768_1_1_0_0_n_n 768 rfl rfl k
  have el : dot_S128x768_S768x768_S128x768_1_1_0_0_n_n.lhsIdx (ix2 r h) ((contrEquiv1 dot_S128x768_S768x768_S128x768_1_1_0_0_n_n 768 rfl rfl).symm k) = ix2 r k := funext fun a => Fin.ext (by
    match a with
    | ⟨0, _⟩ => exact rows128_lhs0 _ _
    | ⟨1, _⟩ => exact (rows128_lhs1 _ _).trans hk)
  have er : dot_S128x768_S768x768_S128x768_1_1_0_0_n_n.rhsIdx (ix2 r h) ((contrEquiv1 dot_S128x768_S768x768_S128x768_1_1_0_0_n_n 768 rfl rfl).symm k) = ix2 h k := funext fun a => Fin.ext (by
    match a with
    | ⟨0, _⟩ => exact rows128_rhs0 _ _
    | ⟨1, _⟩ => exact (rows128_rhs1 _ _).trans hk)
  show x0 (dot_S128x768_S768x768_S128x768_1_1_0_0_n_n.lhsIdx (ix2 r h) ((contrEquiv1 dot_S128x768_S768x768_S128x768_1_1_0_0_n_n 768 rfl rfl).symm k)) * x1 (dot_S128x768_S768x768_S128x768_1_1_0_0_n_n.rhsIdx (ix2 r h) ((contrEquiv1 dot_S128x768_S768x768_S128x768_1_1_0_0_n_n 768 rfl rfl).symm k)) = _
  rw [el, er]

/-! ### Which entries of the two operands meet at contraction position `q` of output entry `i` (392 rows) -/

theorem rows392_lhs0 (i : S392x768.Idx) (q : dot_S392x768_S768x768_S392x768_1_1_0_0_n_n.contr.Idx) : (dot_S392x768_S768x768_S392x768_1_1_0_0_n_n.lhsIdx i q 0).val = (i 0).val := by
  unfold DotDims.lhsIdx
  rw [dif_neg (show ¬(0 : Fin S392x768.rank) ∈ dot_S392x768_S768x768_S392x768_1_1_0_0_n_n.lhsBatch by decide), dif_pos (show (0 : Fin S392x768.rank) ∈ dot_S392x768_S768x768_S392x768_1_1_0_0_n_n.lhsNonContracting by decide)]
  rfl
theorem rows392_lhs1 (i : S392x768.Idx) (q : dot_S392x768_S768x768_S392x768_1_1_0_0_n_n.contr.Idx) : (dot_S392x768_S768x768_S392x768_1_1_0_0_n_n.lhsIdx i q 1).val = (q ⟨0, by decide⟩).val :=
  dot_S392x768_S768x768_S392x768_1_1_0_0_n_n.lhsIdx_val_of_single rfl i q
theorem rows392_rhs0 (i : S392x768.Idx) (q : dot_S392x768_S768x768_S392x768_1_1_0_0_n_n.contr.Idx) : (dot_S392x768_S768x768_S392x768_1_1_0_0_n_n.rhsIdx i q 0).val = (i 1).val := by
  unfold DotDims.rhsIdx
  rw [dif_neg (show ¬(0 : Fin S768x768.rank) ∈ dot_S392x768_S768x768_S392x768_1_1_0_0_n_n.rhsBatch by decide), dif_pos (show (0 : Fin S768x768.rank) ∈ dot_S392x768_S768x768_S392x768_1_1_0_0_n_n.rhsNonContracting by decide)]
  rfl
theorem rows392_rhs1 (i : S392x768.Idx) (q : dot_S392x768_S768x768_S392x768_1_1_0_0_n_n.contr.Idx) : (dot_S392x768_S768x768_S392x768_1_1_0_0_n_n.rhsIdx i q 1).val = (q ⟨0, by decide⟩).val :=
  dot_S392x768_S768x768_S392x768_1_1_0_0_n_n.rhsIdx_val_of_single rfl i q

/-- The second projection's body (all 392 patch rows in one block) at an entry. -/
theorem rows392_apply (x0 : Vec Ideal S392x768 .f32) (x1 : Vec Ideal S768x768 .f32) (r : Fin 392) (h : Fin 768) :
    k1_pay1 (F := Ideal) x0 x1 (ix2 r h) = ∑ k : Fin 768, x0 (ix2 r k) * x1 (ix2 h k) := by
  unfold k1_pay1
  rw [shapeCast_self, shapeCast_self]
  refine (Ideal.matmul_constant_zero_apply (φ₁ := .bf16) (φ₂ := .bf16) dot_S392x768_S768x768_S392x768_1_1_0_0_n_n none _ _ (ix2 r h)).trans ?_
  rw [← Equiv.sum_comp (contrEquiv1 dot_S392x768_S768x768_S392x768_1_1_0_0_n_n 768 rfl rfl).symm]
  refine Finset.sum_congr rfl fun k _ => ?_
  have hk := contrEquiv1_symm_val dot_S392x768_S768x768_S392x768_1_1_0_0_n_n 768 rfl rfl k
  have el : dot_S392x768_S768x768_S392x768_1_1_0_0_n_n.lhsIdx (ix2 r h) ((contrEquiv1 dot_S392x768_S768x768_S392x768_1_1_0_0_n_n 768 rfl rfl).symm k) = ix2 r k := funext fun a => Fin.ext (by
    match a with
    | ⟨0, _⟩ => exact rows392_lhs0 _ _
    | ⟨1, _⟩ => exact (rows392_lhs1 _ _).trans hk)
  have er : dot_S392x768_S768x768_S392x768_1_1_0_0_n_n.rhsIdx (ix2 r h) ((contrEquiv1 dot_S392x768_S768x768_S392x768_1_1_0_0_n_n 768 rfl rfl).symm k) = ix2 h k := funext fun a => Fin.ext (by
    match a with
    | ⟨0, _⟩ => exact rows392_rhs0 _ _
    | ⟨1, _⟩ => exact (rows392_rhs1 _ _).trans hk)
  show x0 (dot_S392x768_S768x768_S392x768_1_1_0_0_n_n.lhsIdx (ix2 r h) ((contrEquiv1 dot_S392x768_S768x768_S392x768_1_1_0_0_n_n 768 rfl rfl).symm k)) * x1 (dot_S392x768_S768x768_S392x768_1_1_0_0_n_n.rhsIdx (ix2 r h) ((contrEquiv1 dot_S392x768_S768x768_S392x768_1_1_0_0_n_n 768 rfl rfl).symm k)) = _
  rw [el, er]

end Cert.KernelIdeal.ProjBody

end
-- ==== Proof.PairScore.lean ====
/-
  The function both programs compute, over the extended reals, index by index.

  A token row and a patch row are each projected by a square weight matrix (row r of x against row h of w, summed over
  the shared axis), the two projections and a bias are added, negative entries are cut to zero, the result is contracted
  with a second weight vector, a scalar bias is added, and the logistic function is applied:

      score[b, t, p] = σ( Σ_h max((tok[b,t,h] + pat[b,p,h]) + b1[h], 0) · w2[h]  +  b2 ).
-/
import Idealize.ShloMosaic.PureOps.Ideal
import Idealize.ShloMosaic.Lib.ValueIdx

noncomputable section

namespace Cert.PairScore

open Idealize.ShloMosaic Idealize.ShloMosaic.ValueIdx

/-- The projection of the rows of `x` by the rows of `w`: entry `(r, h)` is `Σ_k x[r, k] · w[h, k]`. -/
def proj {M : Nat} (x : (⟨2, ![M, 768]⟩ : Shape).Idx → EReal) (w : (⟨2, ![768, 768]⟩ : Shape).Idx → EReal) :
    (⟨2, ![M, 768]⟩ : Shape).Idx → EReal :=
  fun i => ∑ k : Fin 768, x (ix2 (i 0) k) * w (ix2 (i 1) k)

/-- The score of token `t` against patch `p` in batch `b`, from the two projected arrays. -/
def fused (tok : (⟨3, ![2, 512, 768]⟩ : Shape).Idx → EReal) (pat : (⟨3, ![2, 196, 768]⟩ : Shape).Idx → EReal)
    (b1 w2 : (⟨1, ![768]⟩ : Shape).Idx → EReal) (b2 : (⟨1, ![1]⟩ : Shape).Idx → EReal) :
    (⟨3, ![2, 512, 196]⟩ : Shape).Idx → EReal :=
  fun i => Ideal.logistic
    ((∑ h : Fin 768, max ((tok (ix3 (i 0) (i 1) h) + pat (ix3 (i 0) (i 2) h)) + b1 (ix1 h)) 0 * w2 (ix1 h)) + b2 (ix1 0))

theorem proj_apply {M : Nat} (x : (⟨2, ![M, 768]⟩ : Shape).Idx → EReal) (w : (⟨2, ![768, 768]⟩ : Shape).Idx → EReal)
    (r : Fin M) (h : Fin 768) : proj x w (ix2 r h) = ∑ k : Fin 768, x (ix2 r k) * w (ix2 h k) := rfl

theorem fused_apply (tok : (⟨3, ![2, 512, 768]⟩ : Shape).Idx → EReal) (pat : (⟨3, ![2, 196, 768]⟩ : Shape).Idx → EReal)
    (b1 w2 : (⟨1, ![768]⟩ : Shape).Idx → EReal) (b2 : (⟨1, ![1]⟩ : Shape).Idx → EReal) (b : Fin 2) (t : Fin 512) (p : Fin 196) :
    fused tok pat b1 w2 b2 (ix3 b t p) = Ideal.logistic
      ((∑ h : Fin 768, max ((tok (ix3 b t h) + pat (ix3 b p h)) + b1 (ix1 h)) 0 * w2 (ix1 h)) + b2 (ix1 0)) := rfl

/-- Column `k` of the left half, and of the right half, of the first weight matrix's 1536 columns: the token rows are
    projected by the left half, the patch rows by the right half. -/
def lcol (k : Fin 768) : Fin 1536 := ⟨k.val, by have := k.isLt; omega⟩
def rcol (k : Fin 768) : Fin 1536 := ⟨768 + k.val, by have := k.isLt; omega⟩

/-- The whole computation as one function of the six arguments: at `(b, t, p)`,
    `σ( Σ_h max((Σ_k tokens[b,t,k]·W1[h,k] + Σ_k patches[b,p,k]·W1[h,768+k]) + b1[h], 0) · W2[0,h] + b2[0] )`. -/
def score (x0 : (⟨3, ![2, 512, 768]⟩ : Shape).Idx → EReal) (x1 : (⟨3, ![2, 196, 768]⟩ : Shape).Idx → EReal)
    (x2 : (⟨2, ![768, 1536]⟩ : Shape).Idx → EReal) (x3 : (⟨1, ![768]⟩ : Shape).Idx → EReal)
    (x4 : (⟨2, ![1, 768]⟩ : Shape).Idx → EReal) (x5 : (⟨1, ![1]⟩ : Shape).Idx → EReal) :
    (⟨3, ![2, 512, 196]⟩ : Shape).Idx → EReal :=
  fun i => Ideal.logistic
    ((∑ h : Fin 768,
        max (((∑ k : Fin 768, x0 (ix3 (i 0) (i 1) k) * x2 (ix2 h (lcol k)))
              + (∑ k : Fin 768, x1 (ix3 (i 0) (i 2) k) * x2 (ix2 h (rcol k)))) + x3 (ix1 h)) 0 * x4 (ix2 0 h))
      + x5 (ix1 0))

theorem score_apply (x0 : (⟨3, ![2, 512, 768]⟩ : Shape).Idx → EReal) (x1 : (⟨3, ![2, 196, 768]⟩ : Shape).Idx → EReal)
    (x2 : (⟨2, ![768, 1536]⟩ : Shape).Idx → EReal) (x3 : (⟨1, ![768]⟩ : Shape).Idx → EReal)
    (x4 : (⟨2, ![1, 768]⟩ : Shape).Idx → EReal) (x5 : (⟨1, ![1]⟩ : Shape).Idx → EReal) (b : Fin 2) (t : Fin 512) (p : Fin 196) :
    score x0 x1 x2 x3 x4 x5 (ix3 b t p) = Ideal.logistic
      ((∑ h : Fin 768,
          max (((∑ k : Fin 768, x0 (ix3 b t k) * x2 (ix2 h (lcol k)))
                + (∑ k : Fin 768, x1 (ix3 b p k) * x2 (ix2 h (rcol k)))) + x3 (ix1 h)) 0 * x4 (ix2 0 h))
        + x5 (ix1 0)) := rfl

end Cert.PairScore

end
-- ==== Proof.TokProj.lean ====
/-
  The first projection kernel as ONE function of the arrays it finds.  The grid has eight points; point t reads rows
  128·t … 128·t+127 of the flattened token array and the whole weight matrix, and writes the same rows of the result.
  An entry (128·t + r, h) of the result is therefore Σ_k x[128·t + r, k] · w[h, k]: the rows of x projected by the rows
  of w, whatever the tiling.  The eight row blocks tile the 1024 rows, so the whole result array is that projection.
-/
import proofs.«177685_j24704651886645_1_alg».proof.Proof.Gen.KernelIdeal.Frame
import proofs.«177685_j24704651886645_1_alg».proof.Proof.ProjBody
import proofs.«177685_j24704651886645_1_alg».proof.Proof.PairScore
import Idealize.ShloMosaic.Lib.Pipeline.Value

set_option maxRecDepth 16384

noncomputable section

namespace Cert.KernelIdeal.TokProj

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The flattened token array and the first weight matrix as the region finds them, at their literal types. -/
abbrev xs (c : Dev nD) : (⟨2, ![1024, 768]⟩ : Shape).Idx → EReal := V c main_v2
abbrev ws (c : Dev nD) : (⟨2, ![768, 768]⟩ : Shape).Idx → EReal := V c main_v0

theorem zero_offsets : (![0, 0] : Fin 2 → Nat) = fun _ => 0 := funext fun a => by fin_cases a <;> rfl

/-- The index maps over the grid: the token rows move with the output rows, every other block index is zero. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the eight row blocks is some point's. -/
theorem row_block_onto : ∀ q : Fin 8, ∃ t : Fin cfg0.N, win0_2.index t = ![q.val, 0] :=
  (by decide +kernel : ∀ q : Fin 8, ∃ t : Fin grid0.N, win0_2.index t = ![q.val, 0])

/-- What point `t` writes back is block `t` of the projection of the arrays the region finds. -/
theorem flushed_eq (c : Dev nD) (t : Fin cfg0.N) :
    (dat0 V c).flushed 2 t
      = ((cfg0.win 2).blk t).view.read (Elt Ideal) (PairScore.proj (M := 1024) (xs V c) (ws V c)) := by
  show (cfg0.win 2).cut (grid0.coords t) ((dat0 V c).after 2 t) = _
  rw [after0_2]
  unfold out0_2
  rw [View.canon_unit_zero zero_offsets]
  simp only [View.ld_unit_zero (S := S128x768) zero_offsets, View.ld_unit_zero (S := S768x768) zero_offsets]
  obtain ⟨e0, e1, e2, e3, e4⟩ := index_maps t
  funext j
  obtain ⟨r, h, rfl⟩ : ∃ (r : Fin 128) (h : Fin 768), j = ix2 r h := ⟨j 0, j 1, eq_ix2 j⟩
  refine (ProjBody.rows128_apply (iblk0 V c 0 t) (iblk0 V c 1 t) r h).trans ?_
  show _ = ∑ k : Fin 768, xs V c (ix2 ((((cfg0.win 2).blk t).view.emb (ix2 r h)) 0) k)
      * ws V c (ix2 ((((cfg0.win 2).blk t).view.emb (ix2 r h)) 1) k)
  refine Finset.sum_congr rfl fun k _ => ?_
  have hx : iblk0 V c 0 t (ix2 r k) = xs V c (ix2 ((((cfg0.win 2).blk t).view.emb (ix2 r h)) 0) k) := by
    show xs V c (((cfg0.win 0).blk t).view.emb (ix2 r k)) = _
    refine congrArg (xs V c) (funext fun a => Fin.ext ?_)
    match a with
    | ⟨0, _⟩ => show win0_0.index t (0 : Fin 2) * 128 + 1 * r.val = win0_2.index t (0 : Fin 2) * 128 + 1 * r.val; omega
    | ⟨1, _⟩ => show win0_0.index t (1 : Fin 2) * 768 + 1 * k.val = k.val; omega
  have hw : iblk0 V c 1 t (ix2 h k) = ws V c (ix2 ((((cfg0.win 2).blk t).view.emb (ix2 r h)) 1) k) := by
    show ws V c (((cfg0.win 1).blk t).view.emb (ix2 h k)) = _
    refine congrArg (ws V c) (funext fun a => Fin.ext ?_)
    match a with
    | ⟨0, _⟩ => show win0_1.index t (0 : Fin 2) * 768 + 1 * h.val = win0_2.index t (1 : Fin 2) * 768 + 1 * h.val; omega
    | ⟨1, _⟩ => show win0_1.index t (1 : Fin 2) * 768 + 1 * k.val = k.val; omega
  rw [hx, hw]

/-- An index of the result array is in point `t`'s block iff each coordinate is in the block's range on its axis. -/
theorem mem_blk (t : Fin cfg0.N) (i : S1024x768.Idx) :
    i ∈ ((cfg0.win 2).blk t).view.set ↔ ∀ a : Fin 2, win0_2.index t a * S128x768.size a ≤ (i a).val ∧ (i a).val < win0_2.index t a * S128x768.size a + S128x768.size a := by
  show i ∈ ((View.whole main_v4).slice (win0_2.rect t)).set ↔ _
  rw [View.set_slice_whole, Rect.mem_set_unit]
  exact Iff.rfl

/-- The row blocks tile the result: row `i` is in block `i / 128`. -/
theorem cover (i : S1024x768.Idx) : ∃ t : Fin cfg0.N, (cfg0.win 2).flush t = true ∧ i ∈ ((cfg0.win 2).blk t).view.set := by
  have hi0 : (i 0).val < 1024 := (i 0).isLt
  have hi1 : (i 1).val < 768 := (i 1).isLt
  obtain ⟨t, ht⟩ := row_block_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 768 ≤ (i 1).val ∧ (i 1).val < win0_2.index t (1 : Fin 2) * 768 + 768; omega

/-- The result array after the region: the projection of the two arrays the region finds. -/
theorem final (c : Dev nD) :
    (dat0 V c).arrAt 2 cfg0.N = PairScore.proj (M := 1024) (xs V c) (ws V c) :=
  (dat0 V c).arrAt_eq_of_cover 2 _ (fun t _ => flushed_eq V c t) cover

end Cert.KernelIdeal.TokProj

end
-- ==== Proof.PatProj.lean ====
/-
  The second projection kernel as ONE function of the arrays it finds.  Its grid has a single point, which reads all
  392 flattened patch rows and the whole second weight matrix and writes all 392 rows of the result: entry (r, h) is
  Σ_k x[r, k] · w[h, k].  The one block is the whole array, so the result array is that projection.
-/
import proofs.«177685_j24704651886645_1_alg».proof.Proof.Gen.KernelIdeal.Frame
import proofs.«177685_j24704651886645_1_alg».proof.Proof.ProjBody
import proofs.«177685_j24704651886645_1_alg».proof.Proof.PairScore
import Idealize.ShloMosaic.Lib.Pipeline.Value

set_option maxRecDepth 16384

noncomputable section

namespace Cert.KernelIdeal.PatProj

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The flattened patch array and the second weight matrix as the region finds them, at their literal types. -/
abbrev xs (c : Dev nD) : (⟨2, ![392, 768]⟩ : Shape).Idx → EReal := V c main_v3
abbrev ws (c : Dev nD) : (⟨2, ![768, 768]⟩ : Shape).Idx → EReal := V c main_v1

theorem zero_offsets : (![0, 0] : Fin 2 → Nat) = fun _ => 0 := funext fun a => by fin_cases a <;> rfl

/-- The index maps over the grid: every block index is zero. -/
theorem index_maps : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- The one row block is the grid's one point's. -/
theorem row_block_onto : ∀ q : Fin 1, ∃ t : Fin cfg1.N, win1_2.index t = ![q.val, 0] :=
  (by decide +kernel : ∀ q : Fin 1, ∃ t : Fin grid1.N, win1_2.index t = ![q.val, 0])

/-- What point `t` writes back is block `t` of the projection of the arrays the region finds. -/
theorem flushed_eq (c : Dev nD) (t : Fin cfg1.N) :
    (dat1 V c).flushed 2 t
      = ((cfg1.win 2).blk t).view.read (Elt Ideal) (PairScore.proj (M := 392) (xs V c) (ws V c)) := by
  show (cfg1.win 2).cut (grid1.coords t) ((dat1 V c).after 2 t) = _
  rw [after1_2]
  unfold out1_2
  rw [View.canon_unit_zero zero_offsets]
  simp only [View.ld_unit_zero (S := S392x768) zero_offsets, View.ld_unit_zero (S := S768x768) zero_offsets]
  obtain ⟨e0, e1, e2, e3, e4⟩ := index_maps t
  funext j
  obtain ⟨r, h, rfl⟩ : ∃ (r : Fin 392) (h : Fin 768), j = ix2 r h := ⟨j 0, j 1, eq_ix2 j⟩
  refine (ProjBody.rows392_apply (iblk1 V c 0 t) (iblk1 V c 1 t) r h).trans ?_
  show _ = ∑ k : Fin 768, xs V c (ix2 ((((cfg1.win 2).blk t).view.emb (ix2 r h)) 0) k)
      * ws V c (ix2 ((((cfg1.win 2).blk t).view.emb (ix2 r h)) 1) k)
  refine Finset.sum_congr rfl fun k _ => ?_
  have hx : iblk1 V c 0 t (ix2 r k) = xs V c (ix2 ((((cfg1.win 2).blk t).view.emb (ix2 r h)) 0) k) := by
    show xs V c (((cfg1.win 0).blk t).view.emb (ix2 r k)) = _
    refine congrArg (xs V c) (funext fun a => Fin.ext ?_)
    match a with
    | ⟨0, _⟩ => show win1_0.index t (0 : Fin 2) * 392 + 1 * r.val = win1_2.index t (0 : Fin 2) * 392 + 1 * r.val; omega
    | ⟨1, _⟩ => show win1_0.index t (1 : Fin 2) * 768 + 1 * k.val = k.val; omega
  have hw : iblk1 V c 1 t (ix2 h k) = ws V c (ix2 ((((cfg1.win 2).blk t).view.emb (ix2 r h)) 1) k) := by
    show ws V c (((cfg1.win 1).blk t).view.emb (ix2 h k)) = _
    refine congrArg (ws V c) (funext fun a => Fin.ext ?_)
    match a with
    | ⟨0, _⟩ => show win1_1.index t (0 : Fin 2) * 768 + 1 * h.val = win1_2.index t (1 : Fin 2) * 768 + 1 * h.val; omega
    | ⟨1, _⟩ => show win1_1.index t (1 : Fin 2) * 768 + 1 * k.val = k.val; omega
  rw [hx, hw]

/-- An index of the result array is in point `t`'s block iff each coordinate is in the block's range on its axis. -/
theorem mem_blk (t : Fin cfg1.N) (i : S392x768.Idx) :
    i ∈ ((cfg1.win 2).blk t).view.set ↔ ∀ a : Fin 2, win1_2.index t a * S392x768.size a ≤ (i a).val ∧ (i a).val < win1_2.index t a * S392x768.size a + S392x768.size a := by
  show i ∈ ((View.whole main_v5).slice (win1_2.rect t)).set ↔ _
  rw [View.set_slice_whole, Rect.mem_set_unit]
  exact Iff.rfl

/-- The one block is the whole result. -/
theorem cover (i : S392x768.Idx) : ∃ t : Fin cfg1.N, (cfg1.win 2).flush t = true ∧ i ∈ ((cfg1.win 2).blk t).view.set := by
  have hi0 : (i 0).val < 392 := (i 0).isLt
  have hi1 : (i 1).val < 768 := (i 1).isLt
  obtain ⟨t, ht⟩ := row_block_onto ⟨(i 0).val / 392, by omega⟩
  have q0 : win1_2.index t (0 : Fin 2) = (i 0).val / 392 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 392 ≤ (i 0).val ∧ (i 0).val < win1_2.index t (0 : Fin 2) * 392 + 392; omega
  | ⟨1, _⟩ => show win1_2.index t (1 : Fin 2) * 768 ≤ (i 1).val ∧ (i 1).val < win1_2.index t (1 : Fin 2) * 768 + 768; omega

/-- The result array after the region: the projection of the two arrays the region finds. -/
theorem final (c : Dev nD) :
    (dat1 V c).arrAt 2 cfg1.N = PairScore.proj (M := 392) (xs V c) (ws V c) :=
  (dat1 V c).arrAt_eq_of_cover 2 _ (fun t _ => flushed_eq V c t) cover

end Cert.KernelIdeal.PatProj

end
-- ==== Proof.FusedBody.lean ====
/-
  What the fused kernel's body computes from its five loaded blocks, read at an entry.  The token block [1,16,768] and
  the patch block [1,196,768] are re-laid to [16,1,768] and [1,196,768] and broadcast against each other, so that entry
  (r, p, h) of their sum is tok[r, h] + pat[p, h]; the bias and the second weight vector are broadcast along (r, p); the
  sum over the last axis, the scalar bias and the logistic function follow.
-/
import proofs.«177685_j24704651886645_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.FusedBody

open Cert.KernelIdeal Cert.KernelIdeal.Gen Idealize.ShloMosaic Idealize.ShloMosaic.ValueIdx

variable {α : Type}

/-- Dropping the leading unit axis of the token block. -/
theorem tok_drop (v : S1x16x768.Idx → α) (r : Fin 16) (h : Fin 768) :
    shapeCast S16x768 v shapeCasts_S1x16x768_S16x768 (ix2 r h) = v (ix3 0 r h) :=
  shapeCast_apply v _ (ix2 r h) (ix3 0 r h) (by
    rw [Shape.rowMajor_val_three, Shape.rowMajor_val_two]
    show ((0 : ℕ) * 16 + r.val) * 768 + h.val = r.val * 768 + h.val
    omega)

/-- Inserting a unit axis between the token rows and the lanes. -/
theorem tok_mid (v : S16x768.Idx → α) (r : Fin 16) (z : Fin 1) (h : Fin 768) :
    shapeCast S16x1x768 v shapeCasts_S16x768_S16x1x768 (ix3 r z h) = v (ix2 r h) :=
  shapeCast_apply v _ (ix3 r z h) (ix2 r h) (by
    rw [Shape.rowMajor_val_three, Shape.rowMajor_val_two]
    show r.val * 768 + h.val = (r.val * 1 + z.val) * 768 + h.val
    have := z.isLt; omega)

/-- The token rows repeated along the patch axis. -/
theorem tok_bcast (v : S16x1x768.Idx → α) (r : Fin 16) (p : Fin 196) (h : Fin 768) :
    broadcastTo S16x196x768 v broadcasts_S16x1x768_S16x196x768 (ix3 r p h) = v (ix3 r 0 h) :=
  broadcastTo_apply v _ (ix3 r p h) (ix3 r 0 h) (fun a => by
    match a with
    | ⟨0, _⟩ => rfl
    | ⟨1, _⟩ => rfl
    | ⟨2, _⟩ => rfl)

/-- Dropping the leading unit axis of the patch block. -/
theorem pat_drop (v : S1x196x768.Idx → α) (p : Fin 196) (h : Fin 768) :
    shapeCast S196x768 v shapeCasts_S1x196x768_S196x768 (ix2 p h) = v (ix3 0 p h) :=
  shapeCast_apply v _ (ix2 p h) (ix3 0 p h) (by
    rw [Shape.rowMajor_val_three, Shape.rowMajor_val_two]
    show ((0 : ℕ) * 196 + p.val) * 768 + h.val = p.val * 768 + h.val
    omega)

/-- Putting a leading unit axis back on the patch rows. -/
theorem pat_lead (v : S196x768.Idx → α) (z : Fin 1) (p : Fin 196) (h : Fin 768) :
    shapeCast S1x196x768 v shapeCasts_S196x768_S1x196x768 (ix3 z p h) = v (ix2 p h) :=
  shapeCast_apply v _ (ix3 z p h) (ix2 p h) (by
    rw [Shape.rowMajor_val_three, Shape.rowMajor_val_two]
    show p.val * 768 + h.val = (z.val * 196 + p.val) * 768 + h.val
    have := z.isLt; omega)

/-- The patch rows repeated along the token axis. -/
theorem pat_bcast (v : S1x196x768.Idx → α) (r : Fin 16) (p : Fin 196) (h : Fin 768) :
    broadcastTo S16x196x768 v broadcasts_S1x196x768_S16x196x768 (ix3 r p h) = v (ix3 0 p h) :=
  broadcastTo_apply v _ (ix3 r p h) (ix3 0 p h) (fun a => by
    match a with
    | ⟨0, _⟩ => rfl
    | ⟨1, _⟩ => rfl
    | ⟨2, _⟩ => rfl)

/-- A vector over the lanes with two leading unit axes put on. -/
theorem lane_lead (v : S768.Idx → α) (z z' : Fin 1) (h : Fin 768) :
    shapeCast S1x1x768 v shapeCasts_S768_S1x1x768 (ix3 z z' h) = v (ix1 h) :=
  shapeCast_apply v _ (ix3 z z' h) (ix1 h) (by
    rw [Shape.rowMajor_val_three, Shape.rowMajor_val_one]
    show h.val = (z.val * 1 + z'.val) * 768 + h.val
    have := z.isLt; have := z'.isLt; omega)

/-- A vector over the lanes repeated along tokens and patches. -/
theorem lane_bcast (v : S1x1x768.Idx → α) (r : Fin 16) (p : Fin 196) (h : Fin 768) :
    broadcastTo S16x196x768 v broadcasts_S1x1x768_S16x196x768 (ix3 r p h) = v (ix3 0 0 h) :=
  broadcastTo_apply v _ (ix3 r p h) (ix3 0 0 h) (fun a => by
    match a with
    | ⟨0, _⟩ => rfl
    | ⟨1, _⟩ => rfl
    | ⟨2, _⟩ => rfl)

/-- Putting the leading unit axis back on the [16,196] result. -/
theorem out_lead (v : S16x196.Idx → α) (z : Fin 1) (r : Fin 16) (p : Fin 196) :
    shapeCast S1x16x196 v shapeCasts_S16x196_S1x16x196 (ix3 z r p) = v (ix2 r p) :=
  shapeCast_apply v _ (ix3 z r p) (ix2 r p) (by
    rw [Shape.rowMajor_val_three, Shape.rowMajor_val_two]
    show r.val * 196 + p.val = (z.val * 16 + r.val) * 196 + p.val
    have := z.isLt; omega)

/-- The fused body at an entry. -/
theorem score_apply (v0 : Vec Ideal S1x16x768 .f32) (v2 : Vec Ideal S1x196x768 .f32) (v4 v5 : Vec Ideal S768 .f32)
    (v7 : Vec Ideal S1 .f32) (z : Fin 1) (r : Fin 16) (p : Fin 196) :
    k2_pay1 (F := Ideal) v0 v2 v4 v5 v7 (ix3 z r p) =
      Ideal.logistic ((∑ h : Fin 768, max ((v0 (ix3 0 r h) + v2 (ix3 0 p h)) + v4 (ix1 h)) 0 * v5 (ix1 h)) + v7 (ix1 0)) := by
  unfold k2_pay1
  rw [out_lead]
  show Ideal.logistic (_ + _) = Ideal.logistic (_ + _)
  refine congrArg Ideal.logistic (congrArg₂ (· + ·) ?_ ?_)
  · refine (Ideal.multiReduction_add_single _ _ reduces_S16x196x768_S16x196 _ _ (ix2 r p)).trans ?_
    show (∑ k : Fin 768, mulf _ _ (reduces_S16x196x768_S16x196.lift (ix2 r p) k)) = _
    refine Finset.sum_congr rfl fun k _ => ?_
    have e : reduces_S16x196x768_S16x196.lift (ix2 r p) k = ix3 r p k := funext fun a => Fin.ext (by
      match a with
      | ⟨0, _⟩ => rfl
      | ⟨1, _⟩ => rfl
      | ⟨2, _⟩ => rfl)
    rw [e]
    simp only [mulf_apply, maximumf_apply, addf_apply, broadcast_apply]
    rw [tok_bcast, tok_mid, tok_drop, pat_bcast, pat_lead, pat_drop, lane_bcast, lane_lead, lane_bcast, lane_lead,
      shapeCast_self, Ideal.ofBits_def, Ideal.ofBits_zero_f32]
  · show v7 _ = v7 _
    exact congrArg v7 (funext fun a => Fin.ext (by match a with | ⟨0, _⟩ => rfl))

end Cert.KernelIdeal.FusedBody

end
-- ==== Proof.FusedRegion.lean ====
/-
  The fused kernel as ONE function of the arrays it finds.  The grid is 2 × 32; point (b, ti) reads token rows
  16·ti … 16·ti+15 of batch b of the projected token array, all 196 rows of batch b of the projected patch array, the two
  vectors over the 768 lanes and the one-entry bias, and writes rows 16·ti … 16·ti+15 of batch b of the result.  Entry
  (b, 16·ti + r, p) of the result is therefore the score of token 16·ti + r against patch p in batch b, whatever the
  tiling, and the 64 blocks tile the result array.
-/
import proofs.«177685_j24704651886645_1_alg».proof.Proof.Gen.KernelIdeal.Frame
import proofs.«177685_j24704651886645_1_alg».proof.Proof.FusedBody
import proofs.«177685_j24704651886645_1_alg».proof.Proof.PairScore
import Idealize.ShloMosaic.Lib.Pipeline.Value

set_option maxRecDepth 16384

noncomputable section

namespace Cert.KernelIdeal.FusedRegion

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The five arrays the region finds, at their literal types: the projected tokens and patches, the first bias, the
    second weight vector, the one-entry second bias. -/
abbrev tok (c : Dev nD) : (⟨3, ![2, 512, 768]⟩ : Shape).Idx → EReal := V c main_v6
abbrev pat (c : Dev nD) : (⟨3, ![2, 196, 768]⟩ : Shape).Idx → EReal := V c main_v7
abbrev bias1 (c : Dev nD) : (⟨1, ![768]⟩ : Shape).Idx → EReal := V c main_arg3
abbrev wt2 (c : Dev nD) : (⟨1, ![768]⟩ : Shape).Idx → EReal := V c main_v8
abbrev bias2 (c : Dev nD) : (⟨1, ![1]⟩ : Shape).Idx → EReal := V c main_arg5

theorem zero_offsets3 : (![0, 0, 0] : Fin 3 → Nat) = fun _ => 0 := funext fun a => by fin_cases a <;> rfl
theorem zero_offsets1 : (![0] : Fin 1 → Nat) = fun _ => 0 := funext fun a => by fin_cases a <;> rfl

/-- The index maps over the grid: token rows and batch move with the output block, the patch block with the batch alone,
    every other block index is zero. -/
theorem index_maps : ∀ t : Fin cfg2.N,
    win2_0.index t (0 : Fin 3) = win2_5.index t (0 : Fin 3)
    ∧ win2_0.index t (1 : Fin 3) = win2_5.index t (1 : Fin 3)
    ∧ win2_0.index t (2 : Fin 3) = 0
    ∧ win2_1.index t (0 : Fin 3) = win2_5.index t (0 : Fin 3)
    ∧ win2_1.index t (1 : Fin 3) = 0
    ∧ win2_1.index t (2 : Fin 3) = 0
    ∧ win2_2.index t (0 : Fin 1) = 0
    ∧ win2_3.index t (0 : Fin 1) = 0
    ∧ win2_4.index t (0 : Fin 1) = 0
    ∧ win2_5.index t (2 : Fin 3) = 0 :=
  (by decide +kernel : ∀ t : Fin grid2.N, _)

/-- Every (batch, row-block) pair is some point's. -/
theorem block_onto : ∀ (q0 : Fin 2) (q1 : Fin 32), ∃ t : Fin cfg2.N, win2_5.index t = ![q0.val, q1.val, 0] :=
  (by decide +kernel : ∀ (q0 : Fin 2) (q1 : Fin 32), ∃ t : Fin grid2.N, win2_5.index t = ![q0.val, q1.val, 0])

/-- What point `t` writes back is block `t` of the score array of the arrays the region finds. -/
theorem flushed_eq (c : Dev nD) (t : Fin cfg2.N) :
    (dat2 V c).flushed 5 t
      = ((cfg2.win 5).blk t).view.read (Elt Ideal) (PairScore.fused (tok V c) (pat V c) (bias1 V c) (wt2 V c) (bias2 V c)) := by
  show (cfg2.win 5).cut (grid2.coords t) ((dat2 V c).after 5 t) = _
  rw [after2_5]
  unfold out2_5
  rw [View.canon_unit_zero zero_offsets3]
  simp only [View.ld_unit_zero (S := S1x16x768) zero_offsets3, View.ld_unit_zero (S := S1x196x768) zero_offsets3,
    View.ld_unit_zero (S := S768) zero_offsets1, View.ld_unit_zero (S := S1) zero_offsets1]
  obtain ⟨e0, e1, e2, e3, e4, e5, e6, e7, e8, e9⟩ := index_maps t
  funext j
  obtain ⟨z, r, p, rfl⟩ : ∃ (z : Fin 1) (r : Fin 16) (p : Fin 196), j = ix3 z r p := ⟨j 0, j 1, j 2, eq_ix3 j⟩
  have hz : z.val = 0 := by have := z.isLt; omega
  refine (FusedBody.score_apply (iblk2 V c 0 t) (iblk2 V c 1 t) (iblk2 V c 2 t) (iblk2 V c 3 t) (iblk2 V c 4 t) z r p).trans ?_
  show _ = Ideal.logistic ((∑ h : Fin 768,
      max ((tok V c (ix3 ((((cfg2.win 5).blk t).view.emb (ix3 z r p)) 0) ((((cfg2.win 5).blk t).view.emb (ix3 z r p)) 1) h)
            + pat V c (ix3 ((((cfg2.win 5).blk t).view.emb (ix3 z r p)) 0) ((((cfg2.win 5).blk t).view.emb (ix3 z r p)) 2) h))
          + bias1 V c (ix1 h)) 0 * wt2 V c (ix1 h)) + bias2 V c (ix1 0))
  refine congrArg Ideal.logistic (congrArg₂ (· + ·) (Finset.sum_congr rfl fun h _ => ?_) ?_)
  · have h0 : iblk2 V c 0 t (ix3 0 r h)
        = tok V c (ix3 ((((cfg2.win 5).blk t).view.emb (ix3 z r p)) 0) ((((cfg2.win 5).blk t).view.emb (ix3 z r p)) 1) h) := by
      show tok V c (((cfg2.win 0).blk t).view.emb (ix3 0 r h)) = _
      refine congrArg (tok V c) (funext fun a => Fin.ext ?_)
      match a with
      | ⟨0, _⟩ => show win2_0.index t (0 : Fin 3) * 1 + 1 * 0 = win2_5.index t (0 : Fin 3) * 1 + 1 * z.val; omega
      | ⟨1, _⟩ => show win2_0.index t (1 : Fin 3) * 16 + 1 * r.val = win2_5.index t (1 : Fin 3) * 16 + 1 * r.val; omega
      | ⟨2, _⟩ => show win2_0.index t (2 : Fin 3) * 768 + 1 * h.val = h.val; omega
    have h1 : iblk2 V c 1 t (ix3 0 p h)
        = pat V c (ix3 ((((cfg2.win 5).blk t).view.emb (ix3 z r p)) 0) ((((cfg2.win 5).blk t).view.emb (ix3 z r p)) 2) h) := by
      show pat V c (((cfg2.win 1).blk t).view.emb (ix3 0 p h)) = _
      refine congrArg (pat V c) (funext fun a => Fin.ext ?_)
      match a with
      | ⟨0, _⟩ => show win2_1.index t (0 : Fin 3) * 1 + 1 * 0 = win2_5.index t (0 : Fin 3) * 1 + 1 * z.val; omega
      | ⟨1, _⟩ => show win2_1.index t (1 : Fin 3) * 196 + 1 * p.val = win2_5.index t (2 : Fin 3) * 196 + 1 * p.val; omega
      | ⟨2, _⟩ => show win2_1.index t (2 : Fin 3) * 768 + 1 * h.val = h.val; omega
    have h2 : iblk2 V c 2 t (ix1 h) = bias1 V c (ix1 h) := by
      show bias1 V c (((cfg2.win 2).blk t).view.emb (ix1 h)) = _
      refine congrArg (bias1 V c) (funext fun a => Fin.ext ?_)
      match a with
      | ⟨0, _⟩ => show win2_2.index t (0 : Fin 1) * 768 + 1 * h.val = h.val; omega
    have h3 : iblk2 V c 3 t (ix1 h) = wt2 V c (ix1 h) := by
      show wt2 V c (((cfg2.win 3).blk t).view.emb (ix1 h)) = _
      refine congrArg (wt2 V c) (funext fun a => Fin.ext ?_)
      match a with
      | ⟨0, _⟩ => show win2_3.index t (0 : Fin 1) * 768 + 1 * h.val = h.val; omega
    rw [h0, h1, h2, h3]
  · show bias2 V c (((cfg2.win 4).blk t).view.emb (ix1 0)) = _
    refine congrArg (bias2 V c) (funext fun a => Fin.ext ?_)
    match a with
    | ⟨0, _⟩ => show win2_4.index t (0 : Fin 1) * 1 + 1 * 0 = 0; omega

/-- An index of the result array is in point `t`'s block iff each coordinate is in the block's range on its axis. -/
theorem mem_blk (t : Fin cfg2.N) (i : S2x512x196.Idx) :
    i ∈ ((cfg2.win 5).blk t).view.set ↔ ∀ a : Fin 3, win2_5.index t a * S1x16x196.size a ≤ (i a).val ∧ (i a).val < win2_5.index t a * S1x16x196.size a + S1x16x196.size a := by
  show i ∈ ((View.whole main_v9).slice (win2_5.rect t)).set ↔ _
  rw [View.set_slice_whole, Rect.mem_set_unit]
  exact Iff.rfl

/-- The blocks tile the result: entry (b, t, p) is in the block of batch b and row block t / 16. -/
theorem cover (i : S2x512x196.Idx) : ∃ t : Fin cfg2.N, (cfg2.win 5).flush t = true ∧ i ∈ ((cfg2.win 5).blk t).view.set := by
  have hi0 : (i 0).val < 2 := (i 0).isLt
  have hi1 : (i 1).val < 512 := (i 1).isLt
  have hi2 : (i 2).val < 196 := (i 2).isLt
  obtain ⟨t, ht⟩ := block_onto ⟨(i 0).val, hi0⟩ ⟨(i 1).val / 16, by omega⟩
  have q0 : win2_5.index t (0 : Fin 3) = (i 0).val := congrFun ht 0
  have q1 : win2_5.index t (1 : Fin 3) = (i 1).val / 16 := congrFun ht 1
  have q2 : win2_5.index t (2 : Fin 3) = 0 := congrFun ht 2
  refine ⟨t, flush2_5 t, ?_⟩
  rw [mem_blk]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 16 ≤ (i 1).val ∧ (i 1).val < win2_5.index t (1 : Fin 3) * 16 + 16; omega
  | ⟨2, _⟩ => show win2_5.index t (2 : Fin 3) * 196 ≤ (i 2).val ∧ (i 2).val < win2_5.index t (2 : Fin 3) * 196 + 196; omega

/-- The result array after the region: the score array of the five arrays the region finds. -/
theorem final (c : Dev nD) :
    (dat2 V c).arrAt 5 cfg2.N = PairScore.fused (tok V c) (pat V c) (bias1 V c) (wt2 V c) (bias2 V c) :=
  (dat2 V c).arrAt_eq_of_cover 5 _ (fun t _ => flushed_eq V c t) cover

end Cert.KernelIdeal.FusedRegion

end
-- ==== Proof.HostGlue.lean ====
/-
  The kernel's host operations around its three regions, composed.  Tokens [2,512,768] are flattened to [1024,768]
  (row 512·b + t), patches [2,196,768] to [392,768] (row 196·b + p); the first weight matrix [768,1536] is cut into its
  left and right halves of 768 columns; the two projections are un-flattened again; the second weight matrix [1,768] is
  flattened to [768].  Read at an entry, each reshape is the same entry at the re-split row number and each slice is the
  same entry shifted by its column offset, so the composition is the score function of the six arguments.
-/
import proofs.«177685_j24704651886645_1_alg».proof.KernelIdeal
import proofs.«177685_j24704651886645_1_alg».proof.Proof.Gen.KernelIdeal
import proofs.«177685_j24704651886645_1_alg».proof.Proof.PairScore
import Idealize.ShloMosaic.Lib.ValueIdx
import Idealize.ShloMosaic.Lib.Pipeline.Value

noncomputable section

namespace Cert.KernelIdeal.HostGlue

open Cert.KernelIdeal Cert.KernelIdeal.Gen Idealize.ShloMosaic Idealize.ShloMosaic.ValueIdx

variable {α : Type}

/-- Row `512·b + t` of the flattened tokens, row `196·b + p` of the flattened patches. -/
def tokRow (b : Fin 2) (t : Fin 512) : Fin 1024 := ⟨b.val * 512 + t.val, by have := b.isLt; have := t.isLt; omega⟩
def patRow (b : Fin 2) (p : Fin 196) : Fin 392 := ⟨b.val * 196 + p.val, by have := b.isLt; have := p.isLt; omega⟩

theorem tok_flat (x : S2x512x768.Idx → α) (b : Fin 2) (t : Fin 512) (k : Fin 768) :
    shapeCast S1024x768 x shapeCasts_S2x512x768_S1024x768 (ix2 (tokRow b t) k) = x (ix3 b t k) :=
  shapeCast_apply x _ (ix2 (tokRow b t) k) (ix3 b t k) (by
    rw [Shape.rowMajor_val_three, Shape.rowMajor_val_two]
    show (b.val * 512 + t.val) * 768 + k.val = (b.val * 512 + t.val) * 768 + k.val
    rfl)

theorem tok_unflat (y : S1024x768.Idx → α) (b : Fin 2) (t : Fin 512) (h : Fin 768) :
    shapeCast S2x512x768 y shapeCasts_S1024x768_S2x512x768 (ix3 b t h) = y (ix2 (tokRow b t) h) :=
  shapeCast_apply y _ (ix3 b t h) (ix2 (tokRow b t) h) (by
    rw [Shape.rowMajor_val_three, Shape.rowMajor_val_two]
    show (b.val * 512 + t.val) * 768 + h.val = (b.val * 512 + t.val) * 768 + h.val
    rfl)

theorem pat_flat (x : S2x196x768.Idx → α) (b : Fin 2) (p : Fin 196) (k : Fin 768) :
    shapeCast S392x768 x shapeCasts_S2x196x768_S392x768 (ix2 (patRow b p) k) = x (ix3 b p k) :=
  shapeCast_apply x _ (ix2 (patRow b p) k) (ix3 b p k) (by
    rw [Shape.rowMajor_val_three, Shape.rowMajor_val_two]
    show (b.val * 196 + p.val) * 768 + k.val = (b.val * 196 + p.val) * 768 + k.val
    rfl)

theorem pat_unflat (y : S392x768.Idx → α) (b : Fin 2) (p : Fin 196) (h : Fin 768) :
    shapeCast S2x196x768 y shapeCasts_S392x768_S2x196x768 (ix3 b p h) = y (ix2 (patRow b p) h) :=
  shapeCast_apply y _ (ix3 b p h) (ix2 (patRow b p) h) (by
    rw [Shape.rowMajor_val_three, Shape.rowMajor_val_two]
    show (b.val * 196 + p.val) * 768 + h.val = (b.val * 196 + p.val) * 768 + h.val
    rfl)

theorem w2_flat (x : S1x768.Idx → α) (h : Fin 768) :
    shapeCast S768 x shapeCasts_S1x768_S768 (ix1 h) = x (ix2 0 h) :=
  shapeCast_apply x _ (ix1 h) (ix2 0 h) (by
    rw [Shape.rowMajor_val_two, Shape.rowMajor_val_one]
    show 0 * 768 + h.val = h.val
    omega)

theorem w1_left (x : S768x1536.Idx → α) (h k : Fin 768) :
    extractStridedSlice S768x768 ![0, 0] x slices_S768x1536_S768x768_0_0 (ix2 h k) = x (ix2 h (PairScore.lcol k)) :=
  extractStridedSlice_apply _ x _ (ix2 h k) (ix2 h (PairScore.lcol k)) (fun a => by
    match a with
    | ⟨0, _⟩ => show h.val = 0 + h.val; omega
    | ⟨1, _⟩ => show k.val = 0 + k.val; omega)

theorem w1_right (x : S768x1536.Idx → α) (h k : Fin 768) :
    extractStridedSlice S768x768 ![0, 768] x slices_S768x1536_S768x768_0_768 (ix2 h k) = x (ix2 h (PairScore.rcol k)) :=
  extractStridedSlice_apply _ x _ (ix2 h k) (ix2 h (PairScore.rcol k)) (fun a => by
    match a with
    | ⟨0, _⟩ => show h.val = 0 + h.val; omega
    | ⟨1, _⟩ => show 768 + k.val = 768 + k.val; rfl)

/-- The three regions and the host operations around them, as one function of the six arguments. -/
def composed (x0 : S2x512x768.Idx → EReal) (x1 : S2x196x768.Idx → EReal) (x2 : S768x1536.Idx → EReal)
    (x3 : S768.Idx → EReal) (x4 : S1x768.Idx → EReal) (x5 : S1.Idx → EReal) : S2x512x196.Idx → EReal :=
  PairScore.fused
    (shapeCast S2x512x768
      (PairScore.proj (M := 1024) (shapeCast S1024x768 x0 shapeCasts_S2x512x768_S1024x768)
        (extractStridedSlice S768x768 ![0, 0] x2 slices_S768x1536_S768x768_0_0))
      shapeCasts_S1024x768_S2x512x768)
    (shapeCast S2x196x768
      (PairScore.proj (M := 392) (shapeCast S392x768 x1 shapeCasts_S2x196x768_S392x768)
        (extractStridedSlice S768x768 ![0, 768] x2 slices_S768x1536_S768x768_0_768))
      shapeCasts_S392x768_S2x196x768)
    x3 (shapeCast S768 x4 shapeCasts_S1x768_S768) x5

/-- The composition is the score function. -/
theorem composed_eq_score (x0 : S2x512x768.Idx → EReal) (x1 : S2x196x768.Idx → EReal) (x2 : S768x1536.Idx → EReal)
    (x3 : S768.Idx → EReal) (x4 : S1x768.Idx → EReal) (x5 : S1.Idx → EReal) :
    composed x0 x1 x2 x3 x4 x5 = PairScore.score x0 x1 x2 x3 x4 x5 := by
  funext i
  obtain ⟨b, t, p, rfl⟩ : ∃ (b : Fin 2) (t : Fin 512) (p : Fin 196), i = ix3 b t p := ⟨i 0, i 1, i 2, eq_ix3 i⟩
  unfold composed
  rw [PairScore.fused_apply, PairScore.score_apply]
  refine congrArg Ideal.logistic (congrArg₂ (· + ·) (Finset.sum_congr rfl fun h _ => ?_) rfl)
  rw [tok_unflat, pat_unflat, w2_flat, PairScore.proj_apply, PairScore.proj_apply]
  simp only [tok_flat, pat_flat, w1_left, w1_right]

end Cert.KernelIdeal.HostGlue

end
-- ==== Proof.KernelValue.lean ====
/-
  The idealized kernel's result as the score function of its six arguments.  The result buffer ends at the last segment
  boundary's contents.  Reading back: the fused region leaves the score array of the five arrays it finds; two of those
  are un-flattened outputs of the two projection regions, one is the flattened second weight matrix, the others are
  arguments no operation writes; each projection region leaves the projection of a flattened argument by one half of
  the first weight matrix, both made by the first host stretch.  Composed, that is the score function.
-/
import proofs.«177685_j24704651886645_1_alg».proof.Proof.KernelRun
import proofs.«177685_j24704651886645_1_alg».proof.Proof.TokProj
import proofs.«177685_j24704651886645_1_alg».proof.Proof.PatProj
import proofs.«177685_j24704651886645_1_alg».proof.Proof.FusedRegion
import proofs.«177685_j24704651886645_1_alg».proof.Proof.HostGlue
import Idealize.ShloMosaic.Lib.StableHlo.Run

set_option maxRecDepth 16384

noncomputable section

namespace Cert.KernelIdeal.WholeValue

open Cert.KernelIdeal Cert.KernelIdeal.Gen Idealize.ShloMosaic Idealize.ShloMosaic.TcCoe Idealize.ShloMosaic.ValueIdx
open Idealize.SL.Sem Idealize.ShloMosaic.StableHlo

/-! ### What each host stretch leaves, from any contents it starts from -/

section Stretches
variable (w : Valuation τ sig (Elt Ideal))

theorem stretch0_tokens : (StableHlo.after hostOps0 w (Proc.devRef .tc main_v2) : S1024x768.Idx → EReal)
    = shapeCast S1024x768 (w (Proc.devRef .tc main_arg0)) shapeCasts_S2x512x768_S1024x768 := by
  dsimp only [hostOps0]; after_results <;> rfl
theorem stretch0_patches : (StableHlo.after hostOps0 w (Proc.devRef .tc main_v3) : S392x768.Idx → EReal)
    = shapeCast S392x768 (w (Proc.devRef .tc main_arg1)) shapeCasts_S2x196x768_S392x768 := by
  dsimp only [hostOps0]; after_results <;> rfl
theorem stretch0_left : (StableHlo.after hostOps0 w (Proc.devRef .tc main_v0) : S768x768.Idx → EReal)
    = extractStridedSlice S768x768 ![0, 0] (w (Proc.devRef .tc main_arg2)) slices_S768x1536_S768x768_0_0 := by
  dsimp only [hostOps0]; after_results <;> rfl
theorem stretch0_right : (StableHlo.after hostOps0 w (Proc.devRef .tc main_v1) : S768x768.Idx → EReal)
    = extractStridedSlice S768x768 ![0, 768] (w (Proc.devRef .tc main_arg2)) slices_S768x1536_S768x768_0_768 := by
  dsimp only [hostOps0]; after_results <;> rfl
theorem stretch0_w2 : StableHlo.after hostOps0 w (Proc.devRef .tc main_arg4) = w (Proc.devRef .tc main_arg4) := by
  dsimp only [hostOps0]; after_results <;> rfl

theorem stretch2_tok : (StableHlo.after hostOps2 w (Proc.devRef .tc main_v6) : S2x512x768.Idx → EReal)
    = shapeCast S2x512x768 (w (Proc.devRef .tc main_v4)) shapeCasts_S1024x768_S2x512x768 := by
  dsimp only [hostOps2]; after_results <;> rfl
theorem stretch2_pat : (StableHlo.after hostOps2 w (Proc.devRef .tc main_v7) : S2x196x768.Idx → EReal)
    = shapeCast S2x196x768 (w (Proc.devRef .tc main_v5)) shapeCasts_S392x768_S2x196x768 := by
  dsimp only [hostOps2]; after_results <;> rfl
theorem stretch2_w2 : (StableHlo.after hostOps2 w (Proc.devRef .tc main_v8) : S768.Idx → EReal)
    = shapeCast S768 (w (Proc.devRef .tc main_arg4)) shapeCasts_S1x768_S768 := by
  dsimp only [hostOps2]; after_results <;> rfl

end Stretches

variable (m : (ℓ : Loc nD τ sig) → Buf (Elt Ideal) ℓ) (ρ : Dev nD → PrngReg)

/-! ### The five arrays the fused region finds, from the launch memory -/

/-- The projected tokens: the first projection region's result, un-flattened. -/
theorem tok_eq (c : Dev nD) : FusedRegion.tok (V4 m ρ) c
    = shapeCast S2x512x768 (PairScore.proj (M := 1024)
        (shapeCast S1024x768 (m ((c : Thread nD τ).loc main_arg0)) shapeCasts_S2x512x768_S1024x768)
        (extractStridedSlice S768x768 ![0, 0] (m ((c : Thread nD τ).loc main_arg2)) slices_S768x1536_S768x768_0_0))
      shapeCasts_S1024x768_S2x512x768 := by
  have e4 : (W3 m ρ c (Proc.devRef .tc main_v4) : S1024x768.Idx → EReal)
      = PairScore.proj (M := 1024) (TokProj.xs (V1 m ρ) c) (TokProj.ws (V1 m ρ) c) :=
    ((W3_of_ne m ρ c main_v4 (by decide)).trans (W2_arr m ρ c 2)).trans (TokProj.final (V1 m ρ) c)
  have ex : TokProj.xs (V1 m ρ) c = shapeCast S1024x768 (m ((c : Thread nD τ).loc main_arg0)) shapeCasts_S2x512x768_S1024x768 :=
    stretch0_tokens (W0 m ρ c)
  have ew : TokProj.ws (V1 m ρ) c = extractStridedSlice S768x768 ![0, 0] (m ((c : Thread nD τ).loc main_arg2)) slices_S768x1536_S768x768_0_0 :=
    stretch0_left (W0 m ρ c)
  refine (stretch2_tok (W3 m ρ c)).trans ?_
  rw [e4, ex, ew]

/-- The projected patches: the second projection region's result, un-flattened. -/
theorem pat_eq (c : Dev nD) : FusedRegion.pat (V4 m ρ) c
    = shapeCast S2x196x768 (PairScore.proj (M := 392)
        (shapeCast S392x768 (m ((c : Thread nD τ).loc main_arg1)) shapeCasts_S2x196x768_S392x768)
        (extractStridedSlice S768x768 ![0, 768] (m ((c : Thread nD τ).loc main_arg2)) slices_S768x1536_S768x768_0_768))
      shapeCasts_S392x768_S2x196x768 := by
  have e5 : (W3 m ρ c (Proc.devRef .tc main_v5) : S392x768.Idx → EReal)
      = PairScore.proj (M := 392) (PatProj.xs (V2 m ρ) c) (PatProj.ws (V2 m ρ) c) :=
    (W3_arr m ρ c 2).trans (PatProj.final (V2 m ρ) c)
  have ex : PatProj.xs (V2 m ρ) c = shapeCast S392x768 (m ((c : Thread nD τ).loc main_arg1)) shapeCasts_S2x196x768_S392x768 :=
    (W2_of_ne m ρ c main_v3 (by decide)).trans (stretch0_patches (W0 m ρ c))
  have ew : PatProj.ws (V2 m ρ) c = extractStridedSlice S768x768 ![0, 768] (m ((c : Thread nD τ).loc main_arg2)) slices_S768x1536_S768x768_0_768 :=
    (W2_of_ne m ρ c main_v1 (by decide)).trans (stretch0_right (W0 m ρ c))
  refine (stretch2_pat (W3 m ρ c)).trans ?_
  rw [e5, ex, ew]

/-- The second weight matrix, flattened by the second host stretch; no region and no earlier operation writes it. -/
theorem wt2_eq (c : Dev nD) : FusedRegion.wt2 (V4 m ρ) c
    = shapeCast S768 (m ((c : Thread nD τ).loc main_arg4)) shapeCasts_S1x768_S768 := by
  have e : W3 m ρ c (Proc.devRef .tc main_arg4) = m ((c : Thread nD τ).loc main_arg4) :=
    ((W3_of_ne m ρ c main_arg4 (by decide)).trans (W2_of_ne m ρ c main_arg4 (by decide))).trans (stretch0_w2 (W0 m ρ c))
  refine (stretch2_w2 (W3 m ρ c)).trans ?_
  rw [e]

/-- The two biases are arguments nothing writes: the fused region only reads them (an input window's array is as entered
    at the region's exit), and before it they are as launched. -/
theorem bias1_eq (c : Dev nD) : FusedRegion.bias1 (V4 m ρ) c = m ((c : Thread nD τ).loc main_arg3) :=
  ((W5_arr m ρ c 2).trans (((dat2 (V4 m ρ) c).arrAt_in 2 rfl _).trans (A_eq2 (V4 m ρ) c 2))).symm.trans (W5_main_arg3 m ρ c)
theorem bias2_eq (c : Dev nD) : FusedRegion.bias2 (V4 m ρ) c = m ((c : Thread nD τ).loc main_arg5) :=
  ((W5_arr m ρ c 4).trans (((dat2 (V4 m ρ) c).arrAt_in 4 rfl _).trans (A_eq2 (V4 m ρ) c 4))).symm.trans (W5_main_arg5 m ρ c)

/-- The result buffer's final contents are the score function of the launch arguments. -/
theorem result_eq (c : Dev nD) : (W5 m ρ c (Proc.devRef .tc main_v9) : S2x512x196.Idx → EReal)
    = PairScore.score (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine ((W5_arr m ρ c 5).trans (FusedRegion.final (V4 m ρ) c)).trans ?_
  rw [tok_eq m ρ c, pat_eq m ρ c, wt2_eq m ρ c, bias1_eq m ρ c, bias2_eq m ρ c]
  exact HostGlue.composed_eq_score _ _ _ _ _ _

/-- Every weakly fair execution of the idealized kernel terminates, nothing faulting, with the result array at the score
    function of the launch arguments and every argument array as launched. -/
theorem run : θ_run defs (onTc (τ := τ) (main (F := Ideal))) ⟨m, fun _ => 0, ρ⟩ (fun r => ∀ c : Dev nD,
      r.2.mem ((c.tc : Thread nD τ).loc main_v9)
        = PairScore.score (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Named.run m ρ)

end Cert.KernelIdeal.WholeValue

end
-- ==== Proof.RefValue.lean ====
/-
  The reference program's result, read at an entry, is the score function of the six arguments.  The reference contracts
  the tokens and the patches with the two halves of the first weight matrix, broadcasts the two projections against each
  other over a [2,512,196,768] array, adds the bias, cuts at zero, contracts with the second weight matrix, adds the
  scalar bias and spells the logistic function as 1 / (1 + exp(−x)) — which over the extended reals is the logistic
  function by definition, at both infinities too.
-/
import proofs.«177685_j24704651886645_1_alg».proof.Proof.Gen.ReferenceIdeal.Read
import proofs.«177685_j24704651886645_1_alg».proof.Proof.PairScore
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The word of the float literal 1.0 denotes the real number one. -/
theorem ofBits_one : Ideal.ofBits .f32 0x3F800000#32 = 1 := by
  simp [Ideal.ofBits, Ideal.ieee, -EReal.coe_mul]; norm_num

/-! ### The composed index functions of the generated read-back, at coordinates -/

theorem out_unit (b : Fin 2) (t : Fin 512) (p : Fin 196) : idx_main_v14 (ix3 b t p) = ix4 b t p 0 :=
  funext fun a => Fin.ext (by
    have hb := b.isLt; have ht := t.isLt; have hp := p.isLt
    match a with
    | ⟨0, _⟩ => show ((b.val * 512 + t.val) * 196 + p.val) / 100352 = b.val; omega
    | ⟨1, _⟩ => show ((b.val * 512 + t.val) * 196 + p.val) / 196 % 512 = t.val; omega
    | ⟨2, _⟩ => show ((b.val * 512 + t.val) * 196 + p.val) / 1 % 196 = p.val; omega
    | ⟨3, _⟩ => rfl)

theorem hidden_at (b : Fin 2) (t : Fin 512) (p : Fin 196) (z : Fin 1) (k : Fin 768) :
    lidx_main_v13 (ix4 b t p z) k = ix4 b t p k :=
  funext fun a => Fin.ext (by match a with | ⟨0, _⟩ => rfl | ⟨1, _⟩ => rfl | ⟨2, _⟩ => rfl | ⟨3, _⟩ => rfl)

theorem w2_at (b : Fin 2) (t : Fin 512) (p : Fin 196) (k : Fin 768) :
    ridx_main_v13 (ix4 b t p 0) k = ix2 0 k :=
  funext fun a => Fin.ext (by match a with | ⟨0, _⟩ => rfl | ⟨1, _⟩ => rfl)

theorem tok_at (b : Fin 2) (t : Fin 512) (p : Fin 196) (k : Fin 768) :
    idx_main_v4 (idx_main_v6 (ix4 b t p k)) = ix3 b t k :=
  funext fun a => Fin.ext (by match a with | ⟨0, _⟩ => rfl | ⟨1, _⟩ => rfl | ⟨2, _⟩ => rfl)

theorem pat_at (b : Fin 2) (t : Fin 512) (p : Fin 196) (k : Fin 768) :
    idx_main_v5 (idx_main_v7 (ix4 b t p k)) = ix3 b p k :=
  funext fun a => Fin.ext (by match a with | ⟨0, _⟩ => rfl | ⟨1, _⟩ => rfl | ⟨2, _⟩ => rfl)

theorem b1_at (b : Fin 2) (t : Fin 512) (p : Fin 196) (k : Fin 768) :
    idx_main_v9 (idx_main_v10 (ix4 b t p k)) = ix1 k :=
  funext fun a => Fin.ext (by match a with | ⟨0, _⟩ => rfl)

theorem tok_lhs (b : Fin 2) (t : Fin 512) (h k : Fin 768) : lidx_main_v2 (ix3 b t h) k = ix3 b t k :=
  funext fun a => Fin.ext (by match a with | ⟨0, _⟩ => rfl | ⟨1, _⟩ => rfl | ⟨2, _⟩ => rfl)

theorem tok_rhs (b : Fin 2) (t : Fin 512) (h k : Fin 768) :
    idx_main_v0 (ridx_main_v2 (ix3 b t h) k) = ix2 h (PairScore.lcol k) :=
  funext fun a => Fin.ext (by match a with | ⟨0, _⟩ => rfl | ⟨1, _⟩ => rfl)

theorem pat_lhs (b : Fin 2) (p : Fin 196) (h k : Fin 768) : lidx_main_v3 (ix3 b p h) k = ix3 b p k :=
  funext fun a => Fin.ext (by match a with | ⟨0, _⟩ => rfl | ⟨1, _⟩ => rfl | ⟨2, _⟩ => rfl)

theorem pat_rhs (b : Fin 2) (p : Fin 196) (h k : Fin 768) :
    idx_main_v1 (ridx_main_v3 (ix3 b p h) k) = ix2 h (PairScore.rcol k) :=
  funext fun a => Fin.ext (by match a with | ⟨0, _⟩ => rfl | ⟨1, _⟩ => rfl)

/-- The one-entry bias re-laid as a scalar, read at the scalar's one index. -/
theorem b2_at (x5 : (⟨S1, .f32⟩ : BufTy).Contents (Elt Ideal)) (j : S_.Idx) : val_main_v15 (F := Ideal) x5 j = x5 (ix1 0) := by
  unfold val_main_v15
  refine shapeCast_apply x5 shapeCasts_S1_S_ j (ix1 0) ?_
  rw [Shape.rowMajor_val_one]
  have h := (S_.rowMajor j).isLt
  have e : S_.numel = 1 := by decide
  show 0 = (S_.rowMajor j).val
  omega

/-- The reference's result is the score function of its six arguments. -/
theorem result_eq (x0 : (⟨S2x512x768, .f32⟩ : BufTy).Contents (Elt Ideal)) (x1 : (⟨S2x196x768, .f32⟩ : BufTy).Contents (Elt Ideal))
    (x2 : (⟨S768x1536, .f32⟩ : BufTy).Contents (Elt Ideal)) (x3 : (⟨S768, .f32⟩ : BufTy).Contents (Elt Ideal))
    (x4 : (⟨S1x768, .f32⟩ : BufTy).Contents (Elt Ideal)) (x5 : (⟨S1, .f32⟩ : BufTy).Contents (Elt Ideal)) :
    val_main_v23 (F := Ideal) x0 x1 x2 x3 x4 x5 = PairScore.score x0 x1 x2 x3 x4 x5 := by
  funext i
  obtain ⟨b, t, p, rfl⟩ : ∃ (b : Fin 2) (t : Fin 512) (p : Fin 196), i = ix3 b t p := ⟨i 0, i 1, i 2, eq_ix3 i⟩
  rw [val_main_v23_apply, val_main_v22_apply, val_main_cst_0_apply, val_main_v21_apply, val_main_v20_apply, val_main_cst_apply,
    val_main_v19_apply, val_main_v18_apply, val_main_v17_apply, val_main_v16_apply, b2_at, val_main_v14_apply, out_unit,
    val_main_v13_apply, PairScore.score_apply]
  have sigmoid : ∀ y : EReal,
      FloatOps.hostDivf (F := Ideal) (φ := .f32) (FloatOps.ofBits .f32 0x3F800000#32)
        (FloatOps.addf (FloatOps.ofBits .f32 0x3F800000#32) (FloatOps.hostUnary .exp (FloatOps.hostNegf y))) = Ideal.logistic y := by
    intro y
    show Ideal.div (Ideal.ofBits .f32 0x3F800000#32) (Ideal.ofBits .f32 0x3F800000#32 + Ideal.exp (-y)) = Ideal.div 1 (1 + Ideal.exp (-y))
    rw [ofBits_one]
  refine (sigmoid _).trans (congrArg Ideal.logistic (congrArg₂ (· + ·) (Finset.sum_congr rfl fun k _ => ?_) rfl))
  rw [hidden_at, w2_at, val_main_v12_apply, val_main_call0_v0_apply, val_main_call0_cst_apply, val_main_v11_apply,
    val_main_v10_apply, val_main_v9_apply, b1_at, val_main_v8_apply, val_main_v6_apply, val_main_v4_apply, tok_at,
    val_main_v7_apply, val_main_v5_apply, pat_at, val_main_v2_apply, val_main_v3_apply]
  simp only [val_main_v0_apply, val_main_v1_apply, tok_lhs, tok_rhs, pat_lhs, pat_rhs]
  show max ((_ + _) + _) (Ideal.ofBits .f32 0x00000000#32) * _ = _
  rw [Ideal.ofBits_zero_f32]

end Cert.ReferenceIdeal.RefValue

end
-- ==== Proof.lean ====
/-
  A kernel that scores every (token, patch) pair of a batch against its plain reference, over the extended reals.

  Both programs compute, for tokens[2,512,768], patches[2,196,768], W1[768,1536], b1[768], W2[1,768], b2[1],

      score[b, t, p] = σ( Σ_h max((Σ_k tokens[b,t,k]·W1[h,k] + Σ_k patches[b,p,k]·W1[h,768+k]) + b1[h], 0) · W2[0,h] + b2[0] ).

  The kernel does it in three tiled stages — the token rows projected by the left half of W1 (eight blocks of 128
  flattened rows), the patch rows by the right half (one block), then a fused stage over a 2 × 32 grid that forms the
  hidden entries of a 16 × 196 × 768 block, cuts them at zero, contracts with W2, adds b2 and applies the logistic
  function — with reshapes and slices on the host in between.  The reference contracts whole arrays, broadcasts the two
  projections against each other and spells the logistic function as 1 / (1 + exp(−x)).

  Over the extended reals a change of float format is the identity, a contraction into a zero accumulator and a sum along
  an axis are plain finite sums, a tiling only says which point writes which entries, and 1 / (1 + exp(−x)) IS the
  logistic function (at −∞ it is 0, at +∞ it is 1, by the conventions of the quotient and of exp).  Both sides add and
  multiply the same entries in the same order, so no algebraic law beyond these readings is used and the finiteness of
  the inputs is never opened.

  The idealized kernel is the kernel's own text read over the extended reals: the idealization rewrote no operation,
  so the conjunct relating the two is `True`.
-/
import proofs.«177685_j24704651886645_1_alg».proof.Defs
import proofs.«177685_j24704651886645_1_alg».proof.Proof.Gen.Kernel
import proofs.«177685_j24704651886645_1_alg».proof.Proof.Gen.Kernel.Frame
import proofs.«177685_j24704651886645_1_alg».proof.Proof.Gen.KernelIdeal
import proofs.«177685_j24704651886645_1_alg».proof.Proof.Gen.KernelIdeal.Frame
import proofs.«177685_j24704651886645_1_alg».proof.Proof.Gen.ReferenceIdeal
import proofs.«177685_j24704651886645_1_alg».proof.Proof.Gen.ReferenceIdeal.Run
import proofs.«177685_j24704651886645_1_alg».proof.Proof.Gen.ReferenceIdeal.Read
import proofs.«177685_j24704651886645_1_alg».proof.Proof.Gen.Pre_finite_inputs
import proofs.«177685_j24704651886645_1_alg».proof.Proof.KernelValue
import proofs.«177685_j24704651886645_1_alg».proof.Proof.RefValue

noncomputable section

namespace Cert.Proof

open Idealize.ShloMosaic Idealize.ShloMosaic.TcCoe Idealize.SL.Sem

/-- The kernel as printed runs, and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the six arguments both programs end with the score function of those arguments in their
    result arrays, and the arguments unchanged. -/
theorem algebraic : Cert.algebraic_KernelIdeal_ReferenceIdeal := by
  intro m ρ m' ρ' _ hagree
  refine ⟨fun c => Cert.PairScore.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v23_eq _ _ _ _ _ _).trans (Cert.ReferenceIdeal.RefValue.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
